-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096x64 : Shape := ⟨4, ![8, 16, 4096, 64]⟩
abbrev S_ : Shape := ⟨0, ![]⟩

class Facts : Prop where
  bcast_S_S8x16x4096x64 : S_.BroadcastsInDim S8x16x4096x64 (![] : Fin 0 → Fin S8x16x4096x64.rank)
  reducesTo_S8x16x4096x64_S_d0_1_2_3 : S8x16x4096x64.ReducesTo [0, 1, 2, 3] S_
  h_S_ : 0 < S_.numel

variable [Facts]

def fn {F : FTy → Type} [FloatOps F] (main_arg0 : FVec F S8x16x4096x64 .f32) (main_arg1 : FVec F S8x16x4096x64 .f32) (main_arg2 : FVec F S8x16x4096x64 .f32) : IVec S_ 1 :=
  let main_v0 : FVec F S8x16x4096x64 .f32 := Host.absf main_arg0
  let main_cst : FVec F S_ .f32 := constant S_ .f32 0x7F800000#32
  let main_v1 : FVec F S8x16x4096x64 .f32 := broadcastInDim S8x16x4096x64 ![] bcast_S_S8x16x4096x64 main_cst
  let main_v2 : IVec S8x16x4096x64 1 := cmpf .olt main_v0 main_v1
  let main_c : IVec S_ 1 := constantI S_ 1 1#1
  let main_v3 : IVec S_ 1 := (fun x v => Host.reduce IntOp.andi x v reducesTo_S8x16x4096x64_S_d0_1_2_3 h_S_) main_v2 main_c
  let main_v4 : FVec F S8x16x4096x64 .f32 := Host.absf main_arg1
  let main_cst_0 : FVec F S_ .f32 := constant S_ .f32 0x7F800000#32
  let main_v5 : FVec F S8x16x4096x64 .f32 := broadcastInDim S8x16x4096x64 ![] bcast_S_S8x16x4096x64 main_cst_0
  let main_v6 : IVec S8x16x4096x64 1 := cmpf .olt main_v4 main_v5
  let main_c_1 : IVec S_ 1 := constantI S_ 1 1#1
  let main_v7 : IVec S_ 1 := (fun x v => Host.reduce IntOp.andi x v reducesTo_S8x16x4096x64_S_d0_1_2_3 h_S_) main_v6 main_c_1
  let main_v8 : IVec S_ 1 := andi main_v3 main_v7
  let main_v9 : FVec F S8x16x4096x64 .f32 := Host.absf main_arg2
  let main_cst_2 : FVec F S_ .f32 := constant S_ .f32 0x7F800000#32
  let main_v10 : FVec F S8x16x4096x64 .f32 := broadcastInDim S8x16x4096x64 ![] bcast_S_S8x16x4096x64 main_cst_2
  let main_v11 : IVec S8x16x4096x64 1 := cmpf .olt main_v9 main_v10
  let main_c_3 : IVec S_ 1 := constantI S_ 1 1#1
  let main_v12 : IVec S_ 1 := (fun x v => Host.reduce IntOp.andi x v reducesTo_S8x16x4096x64_S_d0_1_2_3 h_S_) main_v11 main_c_3
  let main_v13 : IVec S_ 1 := andi main_v8 main_v12
  main_v13
-- ==== Kernel.lean ====
abbrev S8x16x4096x64 : Shape := ⟨4, ![8, 16, 4096, 64]⟩
abbrev S1x2x4096x64 : Shape := ⟨4, ![1, 2, 4096, 64]⟩
abbrev S1x1x4096x64 : Shape := ⟨4, ![1, 1, 4096, 64]⟩
abbrev S4096x64 : Shape := ⟨2, ![4096, 64]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S64x64 : Shape := ⟨2, ![64, 64]⟩

abbrev nBuf : Space → Nat
  | .hbm => 4
  | .vmem => 8
  | .smem => 0
  | _ => 0

abbrev bufTy : (tb : Table) → Fin (tcTables nBuf tb) → BufTy
  | .hbm, ⟨0, _⟩ => ⟨S8x16x4096x64, .f32⟩
  | .hbm, ⟨1, _⟩ => ⟨S8x16x4096x64, .f32⟩
  | .hbm, ⟨2, _⟩ => ⟨S8x16x4096x64, .f32⟩
  | .hbm, ⟨3, _⟩ => ⟨S8x16x4096x64, .f32⟩
  | .local _ .vmem, ⟨0, _⟩ => ⟨S1x2x4096x64, .f32⟩
  | .local _ .vmem, ⟨1, _⟩ => ⟨S1x2x4096x64, .f32⟩
  | .local _ .vmem, ⟨2, _⟩ => ⟨S1x2x4096x64, .f32⟩
  | .local _ .vmem, ⟨3, _⟩ => ⟨S1x2x4096x64, .f32⟩
  | .local _ .vmem, ⟨4, _⟩ => ⟨S1x2x4096x64, .f32⟩
  | .local _ .vmem, ⟨5, _⟩ => ⟨S1x2x4096x64, .f32⟩
  | .local _ .vmem, ⟨6, _⟩ => ⟨S1x2x4096x64, .f32⟩
  | .local _ .vmem, ⟨7, _⟩ => ⟨S1x2x4096x64, .f32⟩
  | _, _ => ⟨S8x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_off1 (k0_t1 : Fin k0_t1_loop.trips) : Fin 4 → Nat :=
  let c0 : Index := 0#32
  let c0_i32 : BitVec 32 := 0#32
  let c1_i32 : BitVec 32 := 1#32
  let arg6 : BitVec 32 := Scf.iv c0_i32 c1_i32 k0_t1
  let v1 : Index := Scalar.indexCast arg6
  let c0_1 : Index := 0#32
  let c0_2 : Index := 0#32
  ![0, v1.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  h_S1x1x4096x64 : 0 < S1x1x4096x64.numel
  shapeCasts_S1x1x4096x64_S4096x64 : S1x1x4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  reduces_S4096x64_S64 : S4096x64.Reduces [0] S64
  shapeCasts_S64_S1x64 : S64.ShapeCasts S1x64
  broadcasts_S1x64_S4096x64 : S1x64.Broadcasts S4096x64
  bitsLt_bf16_f32 : FTy.bits .bf16 < FTy.bits .f32
  shapeCasts_S4096x64_S1x1x4096x64 : S4096x64.ShapeCasts S1x1x4096x64
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  hrank0 : 0 < grid0.rank
  k0_t1_ok : k0_t1_loop.OK
  k0_off1_inb : ∀ k0_t1 : Fin k0_t1_loop.trips, ∀ a, (k0_off1 k0_t1) a + S1x1x4096x64.size a ≤ S1x2x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x4096x64.size a ≤ S8x16x4096x64.size a
  hwx0_0 : ∀ i : grid0.Coords, EltTy.bits .f32 = 32 ∨ (Rect.block (s := S8x16x4096x64) S1x2x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096x64.size a ≤ S8x16x4096x64.size a
  hwx0_1 : ∀ i : grid0.Coords, EltTy.bits .f32 = 32 ∨ (Rect.block (s := S8x16x4096x64) S1x2x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x4096x64.size a ≤ S8x16x4096x64.size a
  hwx0_2 : ∀ i : grid0.Coords, EltTy.bits .f32 = 32 ∨ (Rect.block (s := S8x16x4096x64) S1x2x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x4096x64.size a ≤ S8x16x4096x64.size a
  hwx0_3 : ∀ i : grid0.Coords, EltTy.bits .f32 = 32 ∨ (Rect.block (s := S8x16x4096x64) S1x2x4096x64.size (cc0_transform_3 i) (hinb0_3 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S1x2x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x16x4096x64 : Shape := ⟨4, ![8, 16, 4096, 64]⟩
abbrev S_ : Shape := ⟨0, ![]⟩
abbrev S8x16x4096 : Shape := ⟨3, ![8, 16, 4096]⟩
abbrev S8x16x4096x1 : Shape := ⟨4, ![8, 16, 4096, 1]⟩
abbrev S8x16x64 : Shape := ⟨3, ![8, 16, 64]⟩
abbrev S8x16x1x64 : Shape := ⟨4, ![8, 16, 1, 64]⟩
abbrev S8x16x64x64 : Shape := ⟨4, ![8, 16, 64, 64]⟩

abbrev nBuf : Space → Nat
  | .hbm => 36
  | .vmem => 0
  | .smem => 0
  | _ => 0

abbrev bufTy : (tb : Table) → Fin (tcTables nBuf tb) → BufTy
  | .hbm, ⟨0, _⟩ => ⟨S8x16x4096x64, .f32⟩
  | .hbm, ⟨1, _⟩ => ⟨S8x16x4096x64, .f32⟩
  | .hbm, ⟨2, _⟩ => ⟨S8x16x4096x64, .f32⟩
  | .hbm, ⟨3, _⟩ => ⟨S_, .f32⟩
  | .hbm, ⟨4, _⟩ => ⟨S8x16x4096, .f32⟩
  | .hbm, ⟨5, _⟩ => ⟨S_, .f32⟩
  | .hbm, ⟨6, _⟩ => ⟨S8x16x4096, .f32⟩
  | .hbm, ⟨7, _⟩ => ⟨S8x16x4096, .f32⟩
  | .hbm, ⟨8, _⟩ => ⟨S8x16x4096x1, .f32⟩
  | .hbm, ⟨9, _⟩ => ⟨S8x16x4096x64, .f32⟩
  | .hbm, ⟨10, _⟩ => ⟨S8x16x4096x64, .f32⟩
  | .hbm, ⟨11, _⟩ => ⟨S8x16x4096x64, .f32⟩
  | .hbm, ⟨12, _⟩ => ⟨S_, .f32⟩
  | .hbm, ⟨13, _⟩ => ⟨S8x16x4096, .f32⟩
  | .hbm, ⟨14, _⟩ => ⟨S8x16x4096x1, .f32⟩
  | .hbm, ⟨15, _⟩ => ⟨S8x16x4096x64, .f32⟩
  | .hbm, ⟨16, _⟩ => ⟨S8x16x4096x64, .f32⟩
  | .hbm, ⟨17, _⟩ => ⟨S_, .f32⟩
  | .hbm, ⟨18, _⟩ => ⟨S8x16x4096x64, .f32⟩
  | .hbm, ⟨19, _⟩ => ⟨S8x16x4096x64, .f32⟩
  | .hbm, ⟨20, _⟩ => ⟨S_, .f32⟩
  | .hbm, ⟨21, _⟩ => ⟨S8x16x64, .f32⟩
  | .hbm, ⟨22, _⟩ => ⟨S_, .f32⟩
  | .hbm, ⟨23, _⟩ => ⟨S8x16x64, .f32⟩
  | .hbm, ⟨24, _⟩ => ⟨S8x16x64, .f32⟩
  | .hbm, ⟨25, _⟩ => ⟨S8x16x1x64, .f32⟩
  | .hbm, ⟨26, _⟩ => ⟨S8x16x4096x64, .f32⟩
  | .hbm, ⟨27, _⟩ => ⟨S8x16x4096x64, .f32⟩
  | .hbm, ⟨28, _⟩ => ⟨S8x16x4096x64, .f32⟩
  | .hbm, ⟨29, _⟩ => ⟨S_, .f32⟩
  | .hbm, ⟨30, _⟩ => ⟨S8x16x64, .f32⟩
  | .hbm, ⟨31, _⟩ => ⟨S8x16x1x64, .f32⟩
  | .hbm, ⟨32, _⟩ => ⟨S8x16x4096x64, .f32⟩
  | .hbm, ⟨33, _⟩ => ⟨S8x16x4096x64, .f32⟩
  | .hbm, ⟨34, _⟩ => ⟨S8x16x64x64, .f32⟩
  | .hbm, ⟨35, _⟩ => ⟨S8x16x4096x64, .f32⟩
  | _, _ => ⟨S8x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S8x16x4096x64_S8x16x4096_d3 : S8x16x4096x64.ReducesTo [3] S8x16x4096
  h_S_ : 0 < S_.numel
  bcast_S_S8x16x4096 : S_.BroadcastsInDim S8x16x4096 (![] : Fin 0 → Fin S8x16x4096.rank)
  bcast_S8x16x4096_S8x16x4096x1_0_1_2 : S8x16x4096.BroadcastsInDim S8x16x4096x1 (![0, 1, 2] : Fin 3 → Fin S8x16x4096x1.rank)
  bcast_S8x16x4096x1_S8x16x4096x64_0_1_2_3 : S8x16x4096x1.BroadcastsInDim S8x16x4096x64 (![0, 1, 2, 3] : Fin 4 → Fin S8x16x4096x64.rank)
  bcast_S_S8x16x4096x64 : S_.BroadcastsInDim S8x16x4096x64 (![] : Fin 0 → Fin S8x16x4096x64.rank)
  reducesTo_S8x16x4096x64_S8x16x64_d2 : S8x16x4096x64.ReducesTo [2] S8x16x64
  bcast_S_S8x16x64 : S_.BroadcastsInDim S8x16x64 (![] : Fin 0 → Fin S8x16x64.rank)
  bcast_S8x16x64_S8x16x1x64_0_1_3 : S8x16x64.BroadcastsInDim S8x16x1x64 (![0, 1, 3] : Fin 3 → Fin S8x16x1x64.rank)
  bcast_S8x16x1x64_S8x16x4096x64_0_1_2_3 : S8x16x1x64.BroadcastsInDim S8x16x4096x64 (![0, 1, 2, 3] : Fin 4 → Fin S8x16x4096x64.rank)
  dot_S8x16x4096x64_S8x16x4096x64_S8x16x64x64_2_2_3_3_01_01_wf : DotDims.WF S8x16x4096x64 S8x16x4096x64 S8x16x64x64 [2] [2] [3] [3] [0, 1] [0, 1]
  dot_S8x16x4096x64_S8x16x64x64_S8x16x4096x64_3_2_2_3_01_01_wf : DotDims.WF S8x16x4096x64 S8x16x64x64 S8x16x4096x64 [3] [2] [2] [3] [0, 1] [0, 1]

variable [Facts₀]

def dot_S8x16x4096x64_S8x16x4096x64_S8x16x64x64_2_2_3_3_01_01 : DotDims S8x16x4096x64 S8x16x4096x64 S8x16x64x64 where
  lhsContracting := [2]
  rhsContracting := [2]
  lhsNonContracting := [3]
  rhsNonContracting := [3]
  lhsBatch := [0, 1]
  rhsBatch := [0, 1]
  wf := dot_S8x16x4096x64_S8x16x4096x64_S8x16x64x64_2_2_3_3_01_01_wf
def dot_S8x16x4096x64_S8x16x64x64_S8x16x4096x64_3_2_2_3_01_01 : DotDims S8x16x4096x64 S8x16x64x64 S8x16x4096x64 where
  lhsContracting := [3]
  rhsContracting := [2]
  lhsNonContracting := [2]
  rhsNonContracting := [3]
  lhsBatch := [0, 1]
  rhsBatch := [0, 1]
  wf := dot_S8x16x4096x64_S8x16x64x64_S8x16x4096x64_3_2_2_3_01_01_wf

class Facts : Prop extends Facts₀ where

variable [Facts]
-- ==== Proof.Spec.lean ====
/-
  The function both programs compute, stated once over plain coordinates.

  For one (batch, head) pair let Q, K, V be the 4096 × 64 slabs of the three arguments. Then

    qSoft Q n d   = exp (Q n d − max_d' Q n d') / (Σ_d' exp (Q n d' − max_d' Q n d')) · 1/8     (softmax along the channels, scaled)
    kSoft K n d   = exp (K n d − max_n' K n' d) / (Σ_n' exp (K n' d − max_n' K n' d))            (softmax along the sequence)
    context K V d e = Σ_n kSoft K n d · V n e
    head Q K V n e  = Σ_d qSoft Q n d · context K V d e

  and the result array at (b, h, n, e) is `head` of the three slabs at (b, h), read at (n, e).  The maxima start
  from the pattern of −∞ and the scale is the pattern of 1/8: both are kept as the words the two programs print, so
  that neither is ever evaluated.
-/
import Idealize.ShloMosaic.PureOps.Ideal
import Idealize.ShloMosaic.PureOps.Ideal.Laws
import Idealize.ShloMosaic.Lib.ValueIdx

noncomputable section

namespace Cert.LinAttn

open Idealize.ShloMosaic Idealize.ShloMosaic.ValueIdx

/-- The word both programs start their maxima from (−∞ in f32). -/
abbrev negInf : EReal := Ideal.ofBits .f32 0xFF800000#32
/-- The word both programs scale the query softmax by (1/8 in f32). -/
abbrev scale : EReal := Ideal.ofBits .f32 0x3E000000#32

/-- A slab: one head's 4096 × 64 matrix. -/
abbrev Slab := Fin 4096 → Fin 64 → EReal

/-- The maximum of row `n` over the 64 channels, started from −∞. -/
def rowMax (Q : Slab) (n : Fin 4096) : EReal := (Finset.univ : Finset (Fin 64)).fold max negInf (fun d => Q n d)
/-- The numerator of the channel softmax. -/
def qExp (Q : Slab) (n : Fin 4096) (d : Fin 64) : EReal := Ideal.exp (Q n d - rowMax Q n)
/-- The channel softmax of the queries, scaled. -/
def qSoft (Q : Slab) (n : Fin 4096) (d : Fin 64) : EReal := Ideal.div (qExp Q n d) (∑ d' : Fin 64, qExp Q n d') * scale
/-- The maximum of column `d` over the 4096 positions, started from −∞. -/
def colMax (K : Slab) (d : Fin 64) : EReal := (Finset.univ : Finset (Fin 4096)).fold max negInf (fun n => K n d)
/-- The numerator of the sequence softmax. -/
def kExp (K : Slab) (n : Fin 4096) (d : Fin 64) : EReal := Ideal.exp (K n d - colMax K d)
/-- The sequence softmax of the keys. -/
def kSoft (K : Slab) (n : Fin 4096) (d : Fin 64) : EReal := Ideal.div (kExp K n d) (∑ n' : Fin 4096, kExp K n' d)
/-- The 64 × 64 context matrix: keys' softmax against the values, contracted over the sequence. -/
def context (K V : Slab) (d e : Fin 64) : EReal := ∑ n : Fin 4096, kSoft K n d * V n e
/-- One head's result. -/
def head (Q K V : Slab) (n : Fin 4096) (e : Fin 64) : EReal := ∑ d : Fin 64, qSoft Q n d * context K V d e

/-- The (b, h) slab of a [8, 16, 4096, 64] array. -/
def slab (x : (⟨4, ![8, 16, 4096, 64]⟩ : Shape).Idx → EReal) (b : Fin 8) (h : Fin 16) : Slab := fun n d => x (ix4 b h n d)

/-- The whole result: at (b, h, n, e), head (b, h)'s result at (n, e). -/
def G (q k v : (⟨4, ![8, 16, 4096, 64]⟩ : Shape).Idx → EReal) : (⟨4, ![8, 16, 4096, 64]⟩ : Shape).Idx → EReal :=
  fun i => head (slab q (i 0) (i 1)) (slab k (i 0) (i 1)) (slab v (i 0) (i 1)) (i 2) (i 3)

end Cert.LinAttn

end
-- ==== Proof.HeadBlocks.lean ====
/-
  What the kernel body leaves in the output's staging block, as a function of the three input blocks.

  A block is [1, 2, 4096, 64]: two heads of one batch entry.  The body is a counted loop over the two heads; trip `k`
  loads head `k` of each input block, computes that head's result (the body's one arithmetic term) and stores it at
  head `k` of the output block.  So the output block at (0, h, n, e) is the arithmetic term of head `h` of the inputs,
  read at (0, 0, n, e): `bodyOut`.  The run's record of the loop is the list of the trips' stores; each store's
  value is the restriction of `bodyOut` to the store's rectangle, and the stores cover the block, so what is read
  back is `bodyOut`.
-/
import proofs.«128022_j26371099198131_2_alg».proof.Proof.Gen.KernelIdeal.Frame
import Idealize.ShloMosaic.Lib.Pipeline.Value
import Idealize.ShloMosaic.Lib.ValueIdx

set_option maxRecDepth 16384

noncomputable section

namespace Cert.LinAttn.Body

open Cert.KernelIdeal Cert.KernelIdeal.Gen Idealize.ShloMosaic Idealize.ShloMosaic.ValueIdx Idealize.ShloMosaic.TcCoe Idealize.SL.Sem

variable {F : FTy → Type} [FloatOps F]

/-- Head `h` of a two-head block, as a [1, 1, 4096, 64] vector. -/
def headOf (x : Vec F S1x2x4096x64 .f32) (h : Fin 2) : Vec F S1x1x4096x64 .f32 :=
  fun z => x (ix4 (0 : Fin 1) h (⟨(z 2).val, (z 2).isLt⟩ : Fin 4096) (⟨(z 3).val, (z 3).isLt⟩ : Fin 64))

/-- The output block: at (0, h, n, e) the body's arithmetic of head `h` of the three input blocks, at (0, 0, n, e). -/
def bodyOut (x0 x1 x2 : Vec F S1x2x4096x64 .f32) : Vec F S1x2x4096x64 .f32 := fun y =>
  k0_pay1 (headOf x0 ⟨(y 1).val, (y 1).isLt⟩) (headOf x1 ⟨(y 1).val, (y 1).isLt⟩) (headOf x2 ⟨(y 1).val, (y 1).isLt⟩)
    (ix4 (0 : Fin 1) (0 : Fin 1) (⟨(y 2).val, (y 2).isLt⟩ : Fin 4096) (⟨(y 3).val, (y 3).isLt⟩ : Fin 64))

/-- The loop runs at most twice, so a trip is a head. -/
theorem trip_lt (k : Fin k0_t1_loop.trips) : k.val < 2 := Nat.lt_of_lt_of_le k.isLt k0_t1_abs.2.1

/-- Trip `k`'s rectangle starts at (0, k, 0, 0). -/
theorem off_coords (k : Fin k0_t1_loop.trips) : k0_off1 k 0 = 0 ∧ k0_off1 k 1 = k.val ∧ k0_off1 k 2 = 0 ∧ k0_off1 k 3 = 0 := by
  rw [k0_off1_eq k]; exact ⟨rfl, rfl, rfl, rfl⟩

/-- Trip `k`'s load of a block reads head `k` of it: the load's rectangle starts at (0, k, 0, 0) and is one head. -/
theorem ld_head (x : Vec F S1x2x4096x64 .f32) (k : Fin k0_t1_loop.trips) :
    View.ld x (Rect.unit (s := S1x2x4096x64) (k0_off1 k) S1x1x4096x64.size (k0_off1_inb k)) = headOf x ⟨k.val, trip_lt k⟩ := by
  funext z
  show x ((Rect.unit (s := S1x2x4096x64) (k0_off1 k) S1x1x4096x64.size (k0_off1_inb k)).emb z) = _
  unfold headOf
  refine congrArg x (funext fun a => Fin.ext ?_)
  obtain ⟨e0, e1, e2, e3⟩ := off_coords k
  have z0 : (z 0).val < 1 := (z 0).isLt
  have z1 : (z 1).val < 1 := (z 1).isLt
  match a with
  | ⟨0, _⟩ => show k0_off1 k 0 + 1 * (z 0).val = 0; omega
  | ⟨1, _⟩ => show k0_off1 k 1 + 1 * (z 1).val = k.val; omega
  | ⟨2, _⟩ => show k0_off1 k 2 + 1 * (z 2).val = (z 2).val; omega
  | ⟨3, _⟩ => show k0_off1 k 3 + 1 * (z 3).val = (z 3).val; omega

/-- A store through trip `k`'s rectangle lands at head `k`, at the position inside the head it was given. -/
theorem emb_head (k : Fin k0_t1_loop.trips)
    (z : (Rect.unit (s := S1x2x4096x64) (k0_off1 k) S1x1x4096x64.size (k0_off1_inb k)).shape.Idx) :
    ((Rect.unit (s := S1x2x4096x64) (k0_off1 k) S1x1x4096x64.size (k0_off1_inb k)).emb z 1).val = k.val
    ∧ ((Rect.unit (s := S1x2x4096x64) (k0_off1 k) S1x1x4096x64.size (k0_off1_inb k)).emb z 2).val = (z 2).val
    ∧ ((Rect.unit (s := S1x2x4096x64) (k0_off1 k) S1x1x4096x64.size (k0_off1_inb k)).emb z 3).val = (z 3).val := by
  obtain ⟨e0, e1, e2, e3⟩ := off_coords k
  have z1 : (z 1).val < 1 := (z 1).isLt
  refine ⟨?_, ?_, ?_⟩
  · show k0_off1 k 1 + 1 * (z 1).val = k.val; omega
  · show k0_off1 k 2 + 1 * (z 2).val = (z 2).val; omega
  · show k0_off1 k 3 + 1 * (z 3).val = (z 3).val; omega

/-- Trip `k`'s stored value is `bodyOut` restricted to the trip's rectangle. -/
theorem store_restricts (x0 x1 x2 : Vec F S1x2x4096x64 .f32) (k : Fin k0_t1_loop.trips)
    (z : (Rect.unit (s := S1x2x4096x64) (k0_off1 k) S1x1x4096x64.size (k0_off1_inb k)).shape.Idx) :
    k0_pay1 (View.ld x0 (Rect.unit (s := S1x2x4096x64) (k0_off1 k) S1x1x4096x64.size (k0_off1_inb k)))
        (View.ld x1 (Rect.unit (s := S1x2x4096x64) (k0_off1 k) S1x1x4096x64.size (k0_off1_inb k)))
        (View.ld x2 (Rect.unit (s := S1x2x4096x64) (k0_off1 k) S1x1x4096x64.size (k0_off1_inb k))) z
      = bodyOut x0 x1 x2 ((Rect.unit (s := S1x2x4096x64) (k0_off1 k) S1x1x4096x64.size (k0_off1_inb k)).emb z) := by
  obtain ⟨h1, h2, h3⟩ := emb_head k z
  rw [ld_head, ld_head, ld_head]
  unfold bodyOut
  have hh : (⟨((Rect.unit (s := S1x2x4096x64) (k0_off1 k) S1x1x4096x64.size (k0_off1_inb k)).emb z 1).val,
      ((Rect.unit (s := S1x2x4096x64) (k0_off1 k) S1x1x4096x64.size (k0_off1_inb k)).emb z 1).isLt⟩ : Fin 2) = ⟨k.val, trip_lt k⟩ :=
    Fin.ext h1
  rw [hh]
  refine congrArg _ (funext fun a => Fin.ext ?_)
  have z0 : (z 0).val < 1 := (z 0).isLt
  have z1 : (z 1).val < 1 := (z 1).isLt
  match a with
  | ⟨0, _⟩ => show (z 0).val = 0; omega
  | ⟨1, _⟩ => show (z 1).val = 0; omega
  | ⟨2, _⟩ => exact h2.symm
  | ⟨3, _⟩ => exact h3.symm

section Pieces

variable (𝒱 : Variants) (c : Dev nD) (bd : Option 𝒱.V) (i : grid0.Coords)
  (arg2 : Memref sig .tc .vmem S1x2x4096x64 .f32) (harg2 : arg2.IsWhole)
  (arg3 : Memref sig .tc .vmem S1x2x4096x64 .f32) (harg3 : arg3.IsWhole)
  (arg4 : Memref sig .tc .vmem S1x2x4096x64 .f32) (harg4 : arg4.IsWhole)
  (arg5 : Memref sig .tc .vmem S1x2x4096x64 .f32) (harg5 : arg5.IsWhole)

/-- One trip's record: one store, through the trip's rectangle, of the body's arithmetic of the three loads through
    the same rectangle. -/
theorem trip_record (X2 : BufTy.Contents (Elt F) arg2.view.ty) (X3 : BufTy.Contents (Elt F) arg3.view.ty)
    (X4 : BufTy.Contents (Elt F) arg4.view.ty) (k : Fin k0_t1_loop.trips) :
    tripL_k0_t1 (F := F) 𝒱 c bd i arg2 harg2 arg3 harg3 arg4 harg4 arg5 harg5 X2 X3 X4 k
      = [⟨Rect.unit (s := S1x2x4096x64) (k0_off1 k) S1x1x4096x64.size (k0_off1_inb k),
          k0_pay1 (View.ld (arg2.view.read (Elt F) X2) (Rect.unit (s := S1x2x4096x64) (k0_off1 k) S1x1x4096x64.size (k0_off1_inb k)))
            (View.ld (arg3.view.read (Elt F) X3) (Rect.unit (s := S1x2x4096x64) (k0_off1 k) S1x1x4096x64.size (k0_off1_inb k)))
            (View.ld (arg4.view.read (Elt F) X4) (Rect.unit (s := S1x2x4096x64) (k0_off1 k) S1x1x4096x64.size (k0_off1_inb k)))⟩] := by
  unfold tripL_k0_t1 trip_k0_t1
  rfl

/-- Every store the loop records, over input blocks `x0 x1 x2`, is a restriction of `bodyOut x0 x1 x2`. -/
theorem loop_restricts (x0 x1 x2 : Vec F S1x2x4096x64 .f32) : ∀ (n : ℕ),
    ∀ p ∈ pb_k0_t1 (F := F) 𝒱 c bd i arg2 harg2 arg3 harg3 arg4 harg4 arg5 harg5 (harg2.unread x0) (harg3.unread x1) (harg4.unread x2) n,
      ∀ z : p.1.shape.Idx, p.2 z = bodyOut x0 x1 x2 (p.1.emb z)
  | 0 => fun p hp => absurd hp (by rw [pb_k0_t1.eq_1]; exact List.not_mem_nil)
  | n + 1 => fun p hp => by
    rw [pb_k0_t1.eq_2] at hp
    unfold pb_k0_t1Step at hp
    split at hp
    · rcases List.mem_append.mp hp with h | h
      · rw [trip_record, harg2.read_unread, harg3.read_unread, harg4.read_unread] at h
        obtain rfl := List.mem_singleton.mp h
        exact fun z => store_restricts x0 x1 x2 _ z
      · exact loop_restricts x0 x1 x2 n p h
    · exact loop_restricts x0 x1 x2 n p hp

end Pieces

/-- WHAT THE BODY LEAVES in the output's staging block: `bodyOut` of the three input blocks. -/
theorem out_eq (c : Dev nD) (i : grid0.Coords)
    (arg2 : Memref sig .tc .vmem S1x2x4096x64 .f32) (harg2 : arg2.IsWhole)
    (arg3 : Memref sig .tc .vmem S1x2x4096x64 .f32) (harg3 : arg3.IsWhole)
    (arg4 : Memref sig .tc .vmem S1x2x4096x64 .f32) (harg4 : arg4.IsWhole)
    (arg5 : Memref sig .tc .vmem S1x2x4096x64 .f32) (harg5 : arg5.IsWhole)
    (x0 x1 x2 : Vec F S1x2x4096x64 .f32) :
    out0_A_3 (F := F) c i arg2 harg2 arg3 harg3 arg4 harg4 arg5 harg5 x0 x1 x2 = bodyOut x0 x1 x2 := by
  funext y
  unfold out0_A_3
  rw [View.read_writes_eq_canon _ _ _ (cover0_A_3 c i arg2 harg2 arg3 harg3 arg4 harg4 arg5 harg5 x0 x1 x2)]
  refine View.canon_apply_of_pieces (bodyOut x0 x1 x2) _ ?_ y (cover0_A_3 c i arg2 harg2 arg3 harg3 arg4 harg4 arg5 harg5 x0 x1 x2 y)
  have hrun : (kernelRun0_A (F := F) c i arg2 harg2 arg3 harg3 arg4 harg4 arg5 harg5 x0 x1 x2).1
      = pb_k0_t1 (F := F) Variants.none c none i arg2 harg2 arg3 harg3 arg4 harg4 arg5 harg5 (harg2.unread x0) (harg3.unread x1) (harg4.unread x2)
          (Scf.trips (0#32) (Scalar.addi 0#32 2#32) 1#32) := by
    unfold kernelRun0_A; rfl
  rw [hrun]
  exact loop_restricts Variants.none c none i arg2 harg2 arg3 harg3 arg4 harg4 arg5 harg5 x0 x1 x2 _

end Cert.LinAttn.Body

end
-- ==== Proof.ArrayValue.lean ====
/-
  From blocks to the array: what the kernel's result array holds after the run, as one function of the argument arrays.

  The grid is 8 × 8: point (b, g) stages, for every operand, the block [1, 2, 4096, 64] at block index (b, g, 0, 0) —
  batch entry `b`, heads 2g and 2g + 1 — and writes the output block back at the same place.  So head `h` of the input
  block at a point is head (b, 2g + h) of the argument array, the output block (`bodyOut`) is the restriction of

    arrayOut a0 a1 a2 (b, h, n, e) = the body's arithmetic of head (b, h) of the three arrays, read at (0, 0, n, e)

  to the point's block, and the 64 blocks tile the array: the array ends holding `arrayOut`.
-/
import proofs.«128022_j26371099198131_2_alg».proof.Proof.Gen.KernelIdeal.Value
import proofs.«128022_j26371099198131_2_alg».proof.Proof.HeadBlocks

set_option maxRecDepth 16384

noncomputable section

namespace Cert.LinAttn.Body

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)

variable {F : FTy → Type} [FloatOps F]

/-- Head (b, h) of a whole [8, 16, 4096, 64] array, as a [1, 1, 4096, 64] vector. -/
def slabOf (a : S8x16x4096x64.Idx → Elt F .f32) (b : Fin 8) (h : Fin 16) : Vec F S1x1x4096x64 .f32 :=
  fun z => a (ix4 b h (⟨(z 2).val, (z 2).isLt⟩ : Fin 4096) (⟨(z 3).val, (z 3).isLt⟩ : Fin 64))

/-- The result array: at (b, h, n, e) the body's arithmetic of head (b, h) of the three arrays, at (0, 0, n, e). -/
def arrayOut (a0 a1 a2 : S8x16x4096x64.Idx → Elt F .f32) : S8x16x4096x64.Idx → Elt F .f32 := fun i =>
  k0_pay1 (slabOf a0 ⟨(i 0).val, (i 0).isLt⟩ ⟨(i 1).val, (i 1).isLt⟩) (slabOf a1 ⟨(i 0).val, (i 0).isLt⟩ ⟨(i 1).val, (i 1).isLt⟩)
      (slabOf a2 ⟨(i 0).val, (i 0).isLt⟩ ⟨(i 1).val, (i 1).isLt⟩)
    (ix4 (0 : Fin 1) (0 : Fin 1) (⟨(i 2).val, (i 2).isLt⟩ : Fin 4096) (⟨(i 3).val, (i 3).isLt⟩ : Fin 64))

/-- The output block at `j` is the result array at `i` as soon as head `j 1` of each input block is head (`i 0`, `i 1`)
    of its array and the positions inside the head agree. -/
theorem bodyOut_eq_arrayOut (x0 x1 x2 : Vec F S1x2x4096x64 .f32) (a0 a1 a2 : S8x16x4096x64.Idx → Elt F .f32)
    (j : S1x2x4096x64.Idx) (i : S8x16x4096x64.Idx)
    (h0 : headOf x0 ⟨(j 1).val, (j 1).isLt⟩ = slabOf a0 ⟨(i 0).val, (i 0).isLt⟩ ⟨(i 1).val, (i 1).isLt⟩)
    (h1 : headOf x1 ⟨(j 1).val, (j 1).isLt⟩ = slabOf a1 ⟨(i 0).val, (i 0).isLt⟩ ⟨(i 1).val, (i 1).isLt⟩)
    (h2 : headOf x2 ⟨(j 1).val, (j 1).isLt⟩ = slabOf a2 ⟨(i 0).val, (i 0).isLt⟩ ⟨(i 1).val, (i 1).isLt⟩)
    (e2 : (j 2).val = (i 2).val) (e3 : (j 3).val = (i 3).val) : bodyOut x0 x1 x2 j = arrayOut a0 a1 a2 i := by
  unfold bodyOut arrayOut
  rw [h0, h1, h2]
  refine congrArg _ (funext fun a => Fin.ext ?_)
  match a with
  | ⟨0, _⟩ => rfl
  | ⟨1, _⟩ => rfl
  | ⟨2, _⟩ => exact e2
  | ⟨3, _⟩ => exact e3

/-- The printed index maps, decided over the 64 grid points: every input window sits at the output window's block
    index, whose last two coordinates are zero and whose first two are below 8. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (2 : Fin 4) = 0 ∧ win0_3.index t (3 : Fin 4) = 0
    ∧ win0_3.index t (0 : Fin 4) ≤ 7 ∧ win0_3.index t (1 : Fin 4) ≤ 7 :=
  (by decide +kernel : ∀ t : Fin grid0.N, _)

/-- Every (batch entry, pair of heads) is some grid point's block. -/
theorem idx_onto : ∀ (q0 : Fin 8) (q1 : Fin 8), ∃ t : Fin cfg0.N, win0_3.index t = ![q0.val, q1.val, 0, 0] :=
  (by decide +kernel : ∀ (q0 : Fin 8) (q1 : Fin 8), ∃ t : Fin grid0.N, win0_3.index t = ![q0.val, q1.val, 0, 0])

variable (m : (ℓ : Loc nD τ sig) → Buf (Elt F) ℓ) (ρ : Dev nD → PrngReg)

/-- Head `j 1` of the first operand's block at point `t` is the head of the first argument array that the output
    block's index `j` falls in. -/
theorem head_block0 (c : Dev nD) (t : Fin cfg0.N) (j : S1x2x4096x64.Idx) (i : S8x16x4096x64.Idx)
    (c0 : (i 0).val = win0_3.index t (0 : Fin 4) * 1 + 1 * (j 0).val) (c1 : (i 1).val = win0_3.index t (1 : Fin 4) * 2 + 1 * (j 1).val) :
    headOf (iblk m c 0 t) ⟨(j 1).val, (j 1).isLt⟩ = slabOf (V m c main_arg0) ⟨(i 0).val, (i 0).isLt⟩ ⟨(i 1).val, (i 1).isLt⟩ := by
  funext z
  show V m c main_arg0 (((cfg0.win 0).blk t).view.emb (ix4 (0 : Fin 1) (⟨(j 1).val, (j 1).isLt⟩ : Fin 2) (⟨(z 2).val, (z 2).isLt⟩ : Fin 4096) (⟨(z 3).val, (z 3).isLt⟩ : Fin 64)))
    = V m c main_arg0 (ix4 (⟨(i 0).val, (i 0).isLt⟩ : Fin 8) (⟨(i 1).val, (i 1).isLt⟩ : Fin 16) (⟨(z 2).val, (z 2).isLt⟩ : Fin 4096) (⟨(z 3).val, (z 3).isLt⟩ : Fin 64))
  refine congrArg _ (funext fun a => Fin.ext ?_)
  obtain ⟨f00, f01, f02, f03, -, -, -, -, -, -, -, -, -, -, -, -⟩ := idx_facts t
  have j0 : (j 0).val < 1 := (j 0).isLt
  match a with
  | ⟨0, _⟩ => show win0_0.index t (0 : Fin 4) * 1 + 1 * 0 = (i 0).val; omega
  | ⟨1, _⟩ => show win0_0.index t (1 : Fin 4) * 2 + 1 * (j 1).val = (i 1).val; omega
  | ⟨2, _⟩ => show win0_0.index t (2 : Fin 4) * 4096 + 1 * (z 2).val = (z 2).val; omega
  | ⟨3, _⟩ => show win0_0.index t (3 : Fin 4) * 64 + 1 * (z 3).val = (z 3).val; omega

/-- The same for operand 2's block. -/
theorem head_block1 (c : Dev nD) (t : Fin cfg0.N) (j : S1x2x4096x64.Idx) (i : S8x16x4096x64.Idx)
    (c0 : (i 0).val = win0_3.index t (0 : Fin 4) * 1 + 1 * (j 0).val) (c1 : (i 1).val = win0_3.index t (1 : Fin 4) * 2 + 1 * (j 1).val) :
    headOf (iblk m c 1 t) ⟨(j 1).val, (j 1).isLt⟩ = slabOf (V m c main_arg1) ⟨(i 0).val, (i 0).isLt⟩ ⟨(i 1).val, (i 1).isLt⟩ := by
  funext z
  show V m c main_arg1 (((cfg0.win 1).blk t).view.emb (ix4 (0 : Fin 1) (⟨(j 1).val, (j 1).isLt⟩ : Fin 2) (⟨(z 2).val, (z 2).isLt⟩ : Fin 4096) (⟨(z 3).val, (z 3).isLt⟩ : Fin 64)))
    = V m c main_arg1 (ix4 (⟨(i 0).val, (i 0).isLt⟩ : Fin 8) (⟨(i 1).val, (i 1).isLt⟩ : Fin 16) (⟨(z 2).val, (z 2).isLt⟩ : Fin 4096) (⟨(z 3).val, (z 3).isLt⟩ : Fin 64))
  refine congrArg _ (funext fun a => Fin.ext ?_)
  obtain ⟨-, -, -, -, f00, f01, f02, f03, -, -, -, -, -, -, -, -⟩ := idx_facts t
  have j0 : (j 0).val < 1 := (j 0).isLt
  match a with
  | ⟨0, _⟩ => show win0_1.index t (0 : Fin 4) * 1 + 1 * 0 = (i 0).val; omega
  | ⟨1, _⟩ => show win0_1.index t (1 : Fin 4) * 2 + 1 * (j 1).val = (i 1).val; omega
  | ⟨2, _⟩ => show win0_1.index t (2 : Fin 4) * 4096 + 1 * (z 2).val = (z 2).val; omega
  | ⟨3, _⟩ => show win0_1.index t (3 : Fin 4) * 64 + 1 * (z 3).val = (z 3).val; omega

/-- The same for operand 3's block. -/
theorem head_block2 (c : Dev nD) (t : Fin cfg0.N) (j : S1x2x4096x64.Idx) (i : S8x16x4096x64.Idx)
    (c0 : (i 0).val = win0_3.index t (0 : Fin 4) * 1 + 1 * (j 0).val) (c1 : (i 1).val = win0_3.index t (1 : Fin 4) * 2 + 1 * (j 1).val) :
    headOf (iblk m c 2 t) ⟨(j 1).val, (j 1).isLt⟩ = slabOf (V m c main_arg2) ⟨(i 0).val, (i 0).isLt⟩ ⟨(i 1).val, (i 1).isLt⟩ := by
  funext z
  show V m c main_arg2 (((cfg0.win 2).blk t).view.emb (ix4 (0 : Fin 1) (⟨(j 1).val, (j 1).isLt⟩ : Fin 2) (⟨(z 2).val, (z 2).isLt⟩ : Fin 4096) (⟨(z 3).val, (z 3).isLt⟩ : Fin 64)))
    = V m c main_arg2 (ix4 (⟨(i 0).val, (i 0).isLt⟩ : Fin 8) (⟨(i 1).val, (i 1).isLt⟩ : Fin 16) (⟨(z 2).val, (z 2).isLt⟩ : Fin 4096) (⟨(z 3).val, (z 3).isLt⟩ : Fin 64))
  refine congrArg _ (funext fun a => Fin.ext ?_)
  obtain ⟨-, -, -, -, -, -, -, -, f00, f01, f02, f03, -, -, -, -⟩ := idx_facts t
  have j0 : (j 0).val < 1 := (j 0).isLt
  match a with
  | ⟨0, _⟩ => show win0_2.index t (0 : Fin 4) * 1 + 1 * 0 = (i 0).val; omega
  | ⟨1, _⟩ => show win0_2.index t (1 : Fin 4) * 2 + 1 * (j 1).val = (i 1).val; omega
  | ⟨2, _⟩ => show win0_2.index t (2 : Fin 4) * 4096 + 1 * (z 2).val = (z 2).val; omega
  | ⟨3, _⟩ => show win0_2.index t (3 : Fin 4) * 64 + 1 * (z 3).val = (z 3).val; omega

/-- WHAT POINT `t` WRITES BACK is block `t` of `arrayOut` of the argument arrays. -/
theorem flushed_eq (c : Dev nD) (t : Fin cfg0.N) :
    (dats m 0 c).flushed 3 t
      = ((cfg0.win 3).blk t).view.read (Elt F) (arrayOut (V m c main_arg0) (V m c main_arg1) (V m c main_arg2)) := by
  rw [flushed3_A, out_eq]
  funext j
  show bodyOut (iblk m c 0 t) (iblk m c 1 t) (iblk m c 2 t) j
    = arrayOut (V m c main_arg0) (V m c main_arg1) (V m c main_arg2) (((cfg0.win 3).blk t).view.emb j)
  obtain ⟨-, -, -, -, -, -, -, -, -, -, -, -, f32, f33, -, -⟩ := idx_facts t
  refine bodyOut_eq_arrayOut _ _ _ _ _ _ j _ (head_block0 m c t j _ rfl rfl) (head_block1 m c t j _ rfl rfl) (head_block2 m c t j _ rfl rfl) ?_ ?_
  · show (j 2).val = win0_3.index t (2 : Fin 4) * 4096 + 1 * (j 2).val; omega
  · show (j 3).val = win0_3.index t (3 : Fin 4) * 64 + 1 * (j 3).val; omega

/-- An index of the array is in point `t`'s block iff each coordinate is in the block's range on its axis. -/
theorem mem_blk (t : Fin cfg0.N) (i : S8x16x4096x64.Idx) :
    i ∈ ((cfg0.win 3).blk t).view.set ↔ ∀ a : Fin 4, win0_3.index t a * S1x2x4096x64.size a ≤ (i a).val
      ∧ (i a).val < win0_3.index t a * S1x2x4096x64.size a + S1x2x4096x64.size a := by
  show i ∈ ((View.whole main_v0).slice (win0_3.rect t)).set ↔ _
  rw [View.set_slice_whole, Rect.mem_set_unit]
  exact Iff.rfl

/-- The 64 blocks tile the array: index (b, h, n, e) is in the block of the point whose block index is (b, h / 2, 0, 0). -/
theorem covered (i : S8x16x4096x64.Idx) :
    ∃ t : Fin cfg0.N, (cfg0.win 3).flush t = true ∧ i ∈ ((cfg0.win 3).blk t).view.set := by
  have hi0 : (i 0).val < 8 := (i 0).isLt
  have hi1 : (i 1).val < 16 := (i 1).isLt
  have hi2 : (i 2).val < 4096 := (i 2).isLt
  have hi3 : (i 3).val < 64 := (i 3).isLt
  obtain ⟨t, ht⟩ := idx_onto ⟨(i 0).val, hi0⟩ ⟨(i 1).val / 2, by omega⟩
  have q0 : win0_3.index t (0 : Fin 4) = (i 0).val := congrFun ht 0
  have q1 : win0_3.index t (1 : Fin 4) = (i 1).val / 2 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 2 ≤ (i 1).val ∧ (i 1).val < win0_3.index t (1 : Fin 4) * 2 + 2; omega
  | ⟨2, _⟩ => show win0_3.index t (2 : Fin 4) * 4096 ≤ (i 2).val ∧ (i 2).val < win0_3.index t (2 : Fin 4) * 4096 + 4096; omega
  | ⟨3, _⟩ => show win0_3.index t (3 : Fin 4) * 64 ≤ (i 3).val ∧ (i 3).val < win0_3.index t (3 : Fin 4) * 64 + 64; omega

/-- THE ARRAY after the run: `arrayOut` of the argument arrays. -/
theorem final (c : Dev nD) :
    (dats m 0 c).arrAt 3 cfg0.N
      = arrayOut (m ((c : Thread nD τ).loc main_arg0)) (m ((c : Thread nD τ).loc main_arg1)) (m ((c : Thread nD τ).loc main_arg2)) :=
  (dats m 0 c).arrAt_eq_of_cover 3 (arrayOut (V m c main_arg0) (V m c main_arg1) (V m c main_arg2))
    (fun t _ => flushed_eq m c t) covered

/-- The kernel's run, read: every weakly fair execution ends with the result array at `arrayOut` of the arguments and
    the arguments unchanged. -/
theorem run : θ_run defs (onTc (τ := τ) (main (F := F))) ⟨m, fun _ => 0, ρ⟩ fun r => ∀ c : Dev nD,
      r.2.mem ((c : Thread nD τ).loc main_v0)
        = arrayOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.LinAttn.Body

end
-- ==== Proof.RefIsG.lean ====
/-
  The reference program computes the linear-attention function `G`.

  The reference is read one operation at a time. On the query side it takes each row's maximum over the 64 channels
  (a fold of `max` from −∞, then one more `max` with −∞, which changes nothing), subtracts it, exponentiates, sums the
  exponentials along the row (from zero), divides, and scales by 1/8: that is `qSoft`. On the key side it does the same
  along the 4096 positions of each column, without the scale: that is `kSoft`. Its first contraction sums
  `kSoft K n d · V n e` over the positions `n` (`context`), its second sums `qSoft Q n d · context d e` over the
  channels `d` (`head`). Every lemma below is stated at explicit coordinates (b, h, n, d) of one (batch, head) slab, so
  that each broadcast and each reduced axis is a plain statement about which coordinate is kept and which is summed.
-/
import proofs.«128022_j26371099198131_2_alg».proof.Proof.Gen.ReferenceIdeal.Read
import proofs.«128022_j26371099198131_2_alg».proof.Proof.Spec
import Idealize.ShloMosaic.Lib.ValueIdx
import Idealize.ShloMosaic.PureOps.Ideal.Laws

set_option maxRecDepth 16384

noncomputable section

namespace Cert.LinAttn.Ref

open Idealize.ShloMosaic Idealize.ShloMosaic.ValueIdx Cert.ReferenceIdeal Cert.ReferenceIdeal.Gen Cert.ReferenceIdeal.Read

/-- Folding `max` from `a` gives at least `a`, so one more `max` with `a` changes nothing. -/
theorem max_fold_max_self {ι : Type} (s : Finset ι) (a : EReal) (f : ι → EReal) :
    max a (s.fold max a f) = s.fold max a f :=
  max_eq_right ((Finset.le_fold_max a).mpr (Or.inl le_rfl))

/-! ## The query side: softmax along the channels, scaled -/

/-- The reference's row maximum (its reduce over the channel axis) is the fold of `max` from −∞ over the 64 channels. -/
theorem v0_at (q : (⟨S8x16x4096x64, .f32⟩ : BufTy).Contents (Elt Ideal)) (b : Fin 8) (h : Fin 16) (n : Fin 4096) :
    val_main_v0 (F := Ideal) q (ix3 b h n) = Cert.LinAttn.rowMax (Cert.LinAttn.slab q b h) n := by
  unfold val_main_v0
  have h0 := Host.reduce_eq_fold_single (FloatOps.maximumf (F := Ideal) (φ := .f32)) q (val_main_cst (F := Ideal)) reducesTo_S8x16x4096x64_S8x16x4096_d3 (by decide) h_S_ (ix3 b h n)
  refine h0.trans ?_
  unfold Cert.LinAttn.rowMax Cert.LinAttn.slab
  refine Finset.fold_congr (s := (Finset.univ : Finset (Fin 64))) (op := max) (b := Cert.LinAttn.negInf) fun d _ => ?_
  exact congrArg q (funext fun a => Fin.ext (by match a with | ⟨0, _⟩ => rfl | ⟨1, _⟩ => rfl | ⟨2, _⟩ => rfl | ⟨3, _⟩ => rfl))

/-- Taking the maximum with −∞ once more leaves the row maximum as it is. -/
theorem v2_at (q : (⟨S8x16x4096x64, .f32⟩ : BufTy).Contents (Elt Ideal)) (b : Fin 8) (h : Fin 16) (n : Fin 4096) :
    val_main_v2 (F := Ideal) q (ix3 b h n) = Cert.LinAttn.rowMax (Cert.LinAttn.slab q b h) n := by
  rw [val_main_v2_apply, val_main_v1_apply, val_main_cst_0_apply, v0_at]
  exact max_fold_max_self _ _ _

/-- A row's maximum is stored at (b, h, n): the two broadcasts read it there from any channel `d`. -/
theorem idx_v3_v4 (b : Fin 8) (h : Fin 16) (n : Fin 4096) (d : Fin 64) :
    idx_main_v3 (idx_main_v4 (ix4 b h n d)) = ix3 b h n :=
  funext fun a => Fin.ext (by match a with | ⟨0, _⟩ => rfl | ⟨1, _⟩ => rfl | ⟨2, _⟩ => rfl)

/-- The row maximum, broadcast back along the channels. -/
theorem v4_at (q : (⟨S8x16x4096x64, .f32⟩ : BufTy).Contents (Elt Ideal)) (b : Fin 8) (h : Fin 16) (n : Fin 4096) (d : Fin 64) :
    val_main_v4 (F := Ideal) q (ix4 b h n d) = Cert.LinAttn.rowMax (Cert.LinAttn.slab q b h) n := by
  rw [val_main_v4_apply, val_main_v3_apply, idx_v3_v4, v2_at]

/-- The numerator of the channel softmax: exp of the entry minus its row's maximum. -/
theorem v6_at (q : (⟨S8x16x4096x64, .f32⟩ : BufTy).Contents (Elt Ideal)) (b : Fin 8) (h : Fin 16) (n : Fin 4096) (d : Fin 64) :
    val_main_v6 (F := Ideal) q (ix4 b h n d) = Cert.LinAttn.qExp (Cert.LinAttn.slab q b h) n d := by
  rw [val_main_v6_apply, val_main_v5_apply, v4_at]
  rfl

/-- The sum over the channel axis at (b, h, n) runs over the entries (b, h, n, d). -/
theorem idx_v7 (b : Fin 8) (h : Fin 16) (n : Fin 4096) (d : Fin 64) :
    idx_main_v7 (ix3 b h n) d = ix4 b h n d :=
  funext fun a => Fin.ext (by match a with | ⟨0, _⟩ => rfl | ⟨1, _⟩ => rfl | ⟨2, _⟩ => rfl | ⟨3, _⟩ => rfl)

/-- The denominator of the channel softmax: the numerators summed over the 64 channels (the sum starts from zero). -/
theorem v7_at (q : (⟨S8x16x4096x64, .f32⟩ : BufTy).Contents (Elt Ideal)) (b : Fin 8) (h : Fin 16) (n : Fin 4096) :
    val_main_v7 (F := Ideal) q (ix3 b h n) = ∑ d' : Fin 64, Cert.LinAttn.qExp (Cert.LinAttn.slab q b h) n d' := by
  rw [val_main_v7_apply, val_main_cst_1_apply, Ideal.ofBits_def, Ideal.ofBits_zero_f32, zero_add]
  exact Finset.sum_congr rfl fun d' _ => by rw [idx_v7, v6_at]

/-- A row's sum is stored at (b, h, n): the two broadcasts read it there from any channel `d`. -/
theorem idx_v8_v9 (b : Fin 8) (h : Fin 16) (n : Fin 4096) (d : Fin 64) :
    idx_main_v8 (idx_main_v9 (ix4 b h n d)) = ix3 b h n :=
  funext fun a => Fin.ext (by match a with | ⟨0, _⟩ => rfl | ⟨1, _⟩ => rfl | ⟨2, _⟩ => rfl)

/-- The denominator, broadcast back along the channels. -/
theorem v9_at (q : (⟨S8x16x4096x64, .f32⟩ : BufTy).Contents (Elt Ideal)) (b : Fin 8) (h : Fin 16) (n : Fin 4096) (d : Fin 64) :
    val_main_v9 (F := Ideal) q (ix4 b h n d) = ∑ d' : Fin 64, Cert.LinAttn.qExp (Cert.LinAttn.slab q b h) n d' := by
  rw [val_main_v9_apply, val_main_v8_apply, idx_v8_v9, v7_at]

/-- The scaled channel softmax of the queries: numerator over denominator, times 1/8. -/
theorem v12_at (q : (⟨S8x16x4096x64, .f32⟩ : BufTy).Contents (Elt Ideal)) (b : Fin 8) (h : Fin 16) (n : Fin 4096) (d : Fin 64) :
    val_main_v12 (F := Ideal) q (ix4 b h n d) = Cert.LinAttn.qSoft (Cert.LinAttn.slab q b h) n d := by
  rw [val_main_v12_apply, val_main_v10_apply, v6_at, v9_at, val_main_v11_apply, val_main_cst_2_apply]
  rfl

/-! ## The key side: softmax along the sequence -/

/-- The reference's column maximum (its reduce over the sequence axis) is the fold of `max` from −∞ over the 4096 positions. -/
theorem v13_at (k : (⟨S8x16x4096x64, .f32⟩ : BufTy).Contents (Elt Ideal)) (b : Fin 8) (h : Fin 16) (d : Fin 64) :
    val_main_v13 (F := Ideal) k (ix3 b h d) = Cert.LinAttn.colMax (Cert.LinAttn.slab k b h) d := by
  unfold val_main_v13
  have h0 := Host.reduce_eq_fold_single (FloatOps.maximumf (F := Ideal) (φ := .f32)) k (val_main_cst_3 (F := Ideal)) reducesTo_S8x16x4096x64_S8x16x64_d2 (by decide) h_S_ (ix3 b h d)
  refine h0.trans ?_
  unfold Cert.LinAttn.colMax Cert.LinAttn.slab
  refine Finset.fold_congr (s := (Finset.univ : Finset (Fin 4096))) (op := max) (b := Cert.LinAttn.negInf) fun n _ => ?_
  exact congrArg k (funext fun a => Fin.ext (by match a with | ⟨0, _⟩ => rfl | ⟨1, _⟩ => rfl | ⟨2, _⟩ => rfl | ⟨3, _⟩ => rfl))

/-- Taking the maximum with −∞ once more leaves the column maximum as it is. -/
theorem v15_at (k : (⟨S8x16x4096x64, .f32⟩ : BufTy).Contents (Elt Ideal)) (b : Fin 8) (h : Fin 16) (d : Fin 64) :
    val_main_v15 (F := Ideal) k (ix3 b h d) = Cert.LinAttn.colMax (Cert.LinAttn.slab k b h) d := by
  rw [val_main_v15_apply, val_main_v14_apply, val_main_cst_4_apply, v13_at]
  exact max_fold_max_self _ _ _

/-- A column's maximum is stored at (b, h, d): the two broadcasts read it there from any position `n`. -/
theorem idx_v16_v17 (b : Fin 8) (h : Fin 16) (n : Fin 4096) (d : Fin 64) :
    idx_main_v16 (idx_main_v17 (ix4 b h n d)) = ix3 b h d :=
  funext fun a => Fin.ext (by match a with | ⟨0, _⟩ => rfl | ⟨1, _⟩ => rfl | ⟨2, _⟩ => rfl)

/-- The column maximum, broadcast back along the sequence. -/
theorem v17_at (k : (⟨S8x16x4096x64, .f32⟩ : BufTy).Contents (Elt Ideal)) (b : Fin 8) (h : Fin 16) (n : Fin 4096) (d : Fin 64) :
    val_main_v17 (F := Ideal) k (ix4 b h n d) = Cert.LinAttn.colMax (Cert.LinAttn.slab k b h) d := by
  rw [val_main_v17_apply, val_main_v16_apply, idx_v16_v17, v15_at]

/-- The numerator of the sequence softmax: exp of the entry minus its column's maximum. -/
theorem v19_at (k : (⟨S8x16x4096x64, .f32⟩ : BufTy).Contents (Elt Ideal)) (b : Fin 8) (h : Fin 16) (n : Fin 4096) (d : Fin 64) :
    val_main_v19 (F := Ideal) k (ix4 b h n d) = Cert.LinAttn.kExp (Cert.LinAttn.slab k b h) n d := by
  rw [val_main_v19_apply, val_main_v18_apply, v17_at]
  rfl

/-- The sum over the sequence axis at (b, h, d) runs over the entries (b, h, n, d). -/
theorem idx_v20 (b : Fin 8) (h : Fin 16) (d : Fin 64) (n : Fin 4096) :
    idx_main_v20 (ix3 b h d) n = ix4 b h n d :=
  funext fun a => Fin.ext (by match a with | ⟨0, _⟩ => rfl | ⟨1, _⟩ => rfl | ⟨2, _⟩ => rfl | ⟨3, _⟩ => rfl)

/-- The denominator of the sequence softmax: the numerators summed over the 4096 positions (the sum starts from zero). -/
theorem v20_at (k : (⟨S8x16x4096x64, .f32⟩ : BufTy).Contents (Elt Ideal)) (b : Fin 8) (h : Fin 16) (d : Fin 64) :
    val_main_v20 (F := Ideal) k (ix3 b h d) = ∑ n' : Fin 4096, Cert.LinAttn.kExp (Cert.LinAttn.slab k b h) n' d := by
  rw [val_main_v20_apply, val_main_cst_5_apply, Ideal.ofBits_def, Ideal.ofBits_zero_f32, zero_add]
  exact Finset.sum_congr rfl fun n' _ => by rw [idx_v20, v19_at]

/-- A column's sum is stored at (b, h, d): the two broadcasts read it there from any position `n`. -/
theorem idx_v21_v22 (b : Fin 8) (h : Fin 16) (n : Fin 4096) (d : Fin 64) :
    idx_main_v21 (idx_main_v22 (ix4 b h n d)) = ix3 b h d :=
  funext fun a => Fin.ext (by match a with | ⟨0, _⟩ => rfl | ⟨1, _⟩ => rfl | ⟨2, _⟩ => rfl)

/-- The denominator, broadcast back along the sequence. -/
theorem v22_at (k : (⟨S8x16x4096x64, .f32⟩ : BufTy).Contents (Elt Ideal)) (b : Fin 8) (h : Fin 16) (n : Fin 4096) (d : Fin 64) :
    val_main_v22 (F := Ideal) k (ix4 b h n d) = ∑ n' : Fin 4096, Cert.LinAttn.kExp (Cert.LinAttn.slab k b h) n' d := by
  rw [val_main_v22_apply, val_main_v21_apply, idx_v21_v22, v20_at]

/-- The sequence softmax of the keys: numerator over denominator. -/
theorem v23_at (k : (⟨S8x16x4096x64, .f32⟩ : BufTy).Contents (Elt Ideal)) (b : Fin 8) (h : Fin 16) (n : Fin 4096) (d : Fin 64) :
    val_main_v23 (F := Ideal) k (ix4 b h n d) = Cert.LinAttn.kSoft (Cert.LinAttn.slab k b h) n d := by
  rw [val_main_v23_apply, v19_at, v22_at]
  rfl

/-! ## The two contractions -/

/-- The first contraction at (b, h, d, e) reads its left factor at (b, h, n, d) … -/
theorem lidx_v24 (b : Fin 8) (h : Fin 16) (d e : Fin 64) (n : Fin 4096) :
    lidx_main_v24 (ix4 b h d e) n = ix4 b h n d :=
  funext fun a => Fin.ext (by match a with | ⟨0, _⟩ => rfl | ⟨1, _⟩ => rfl | ⟨2, _⟩ => rfl | ⟨3, _⟩ => rfl)

/-- … and its right factor at (b, h, n, e). -/
theorem ridx_v24 (b : Fin 8) (h : Fin 16) (d e : Fin 64) (n : Fin 4096) :
    ridx_main_v24 (ix4 b h d e) n = ix4 b h n e :=
  funext fun a => Fin.ext (by match a with | ⟨0, _⟩ => rfl | ⟨1, _⟩ => rfl | ⟨2, _⟩ => rfl | ⟨3, _⟩ => rfl)

/-- The context matrix: the keys' softmax against the values, contracted over the sequence. -/
theorem v24_at (k v : (⟨S8x16x4096x64, .f32⟩ : BufTy).Contents (Elt Ideal)) (b : Fin 8) (h : Fin 16) (d e : Fin 64) :
    val_main_v24 (F := Ideal) k v (ix4 b h d e)
      = Cert.LinAttn.context (Cert.LinAttn.slab k b h) (Cert.LinAttn.slab v b h) d e := by
  rw [val_main_v24_apply]
  unfold Cert.LinAttn.context
  exact Finset.sum_congr rfl fun n _ => by rw [lidx_v24, ridx_v24, v23_at]; rfl

/-- The second contraction at (b, h, n, e) reads its left factor at (b, h, n, d) … -/
theorem lidx_v25 (b : Fin 8) (h : Fin 16) (n : Fin 4096) (e d : Fin 64) :
    lidx_main_v25 (ix4 b h n e) d = ix4 b h n d :=
  funext fun a => Fin.ext (by match a with | ⟨0, _⟩ => rfl | ⟨1, _⟩ => rfl | ⟨2, _⟩ => rfl | ⟨3, _⟩ => rfl)

/-- … and its right factor at (b, h, d, e). -/
theorem ridx_v25 (b : Fin 8) (h : Fin 16) (n : Fin 4096) (e d : Fin 64) :
    ridx_main_v25 (ix4 b h n e) d = ix4 b h d e :=
  funext fun a => Fin.ext (by match a with | ⟨0, _⟩ => rfl | ⟨1, _⟩ => rfl | ⟨2, _⟩ => rfl | ⟨3, _⟩ => rfl)

/-- One head's result: the scaled query softmax against the context matrix, contracted over the channels. -/
theorem v25_at (q k v : (⟨S8x16x4096x64, .f32⟩ : BufTy).Contents (Elt Ideal)) (b : Fin 8) (h : Fin 16) (n : Fin 4096) (e : Fin 64) :
    val_main_v25 (F := Ideal) q k v (ix4 b h n e)
      = Cert.LinAttn.head (Cert.LinAttn.slab q b h) (Cert.LinAttn.slab k b h) (Cert.LinAttn.slab v b h) n e := by
  rw [val_main_v25_apply]
  unfold Cert.LinAttn.head
  exact Finset.sum_congr rfl fun d _ => by rw [lidx_v25, ridx_v25, v12_at, v24_at]

/-- The reference program's result is the linear-attention function `G` of its three arguments. -/
theorem ref_eq (q k v : (⟨S8x16x4096x64, .f32⟩ : BufTy).Contents (Elt Ideal)) :
    val_main_v25 (F := Ideal) q k v = Cert.LinAttn.G q k v := by
  funext i
  obtain ⟨b, h, n, e, rfl⟩ : ∃ b h n e, i = ix4 b h n e := ⟨i 0, i 1, i 2, i 3, eq_ix4 i⟩
  exact v25_at q k v b h n e

end Cert.LinAttn.Ref

end
-- ==== Proof.LibUnitAxisLayout.lean ====
/-
  Unit axes added, dropped and spread: four layout operations read at an index given by coordinates, generic in the
  extents.  A `[1, 1, a, b]` array read as `[a, b]` is the array at `(0, 0, i, j)`, and back; an `[a]` array read as a
  column `[a, 1]` is the array at `i`; a column `[a, 1]` spread over `[a, b]` is the column at `(p, 0)`.  (The forms a
  reduction with kept dimensions meets: a row reduction's result as a column, spread back over the row.)  Each is the
  general read-at-an-index lemma of its operation with the row-major arithmetic of the two indices discharged.
-/
import Idealize.ShloMosaic.Lib.ValueIdx
import Idealize.ShloMosaic.Lib.ValueLayout
import Idealize.ShloMosaic.Lib.Pipeline.Value

namespace Idealize.ShloMosaic.ValueIdx

open Idealize.ShloMosaic

variable {α : Type}

/-! ## Unit axes added, dropped and spread: four layout operations at an index given by coordinates -/

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelPayload.lean ====
/-
  The kernel body's arithmetic, read at one index.

  The body loads three `[1, 1, 4096, 64]` blocks (queries, keys, values of one head), reads each as a 4096 × 64 matrix,
  and computes

    rowSoft Q  : each row's exponentials less the row maximum, over their row sum, times the scale word   (softmax along the channels)
    colSoft K  : each column's exponentials less the column maximum, over their column sum                (softmax along the sequence)
    C[d, e]    = Σ_n colSoft K [n, d] · V[n, e]          (a product into the zero matrix, contracted over the sequence)
    R[n, e]    = Σ_d rowSoft Q [n, d] · C[d, e]          (a product into the zero matrix, contracted over the channels)

  and stores R read back as a `[1, 1, 4096, 64]` block. At the ideal values the narrowing of the first product's operands is
  the identity, a reduction over one axis is the `Fin`-indexed fold or sum over that axis, and a product into the zero
  matrix is the sum over the contracted coordinate; so the stored block at `(0, 0, n, e)` is `Cert.LinAttn.head` of the
  three blocks' slabs at `(n, e)` (`pay_apply`).

  The unit-axis layout operations (a `[1, 1, a, b]` array read as `[a, b]` and back, an `[a]` array read as a column
  `[a, 1]`, a column `[a, 1]` spread over `[a, b]`) are read at an index in their own module.
-/
import proofs.«128022_j26371099198131_2_alg».proof.Proof.Gen.KernelIdeal.Skeleton
import proofs.«128022_j26371099198131_2_alg».proof.Proof.Spec
import proofs.«128022_j26371099198131_2_alg».proof.Proof.LibUnitAxisLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.LinAttn.Kernel

open Idealize.ShloMosaic Idealize.ShloMosaic.ValueIdx Cert.KernelIdeal Cert.KernelIdeal.Gen

/-! ## The four reductions read at an index

A reduction of a 4096 × 64 block over its channel axis, read at row `n`, and over its sequence axis, read at column `d`:
the fold of `max` from the accumulator's value, or the sum, over the reduced coordinate. -/

/-- The maximum over the 64 channels of row `n`, started from the accumulator's word. -/
theorem rowmax_apply (x : FVec Ideal S4096x64 .f32) (acc : BitVec 32) (h : S4096x64.Reduces [1] S4096)
    (hφ : FKind.Formats .f32) (hacc : acc = FKind.maximumf.neutral .f32 hφ) (n : Fin 4096) :
    multiReduction (F := Ideal) .maximumf [1] S4096 x acc h hφ hacc (ix1 n)
      = (Finset.univ : Finset (Fin 64)).fold max (Ideal.ofBits .f32 acc) (fun d => x (ix2 n d)) := by
  refine (Ideal.multiReduction_maximumf_single x acc h hφ hacc (ix1 n)).trans ?_
  refine Finset.fold_congr (s := (Finset.univ : Finset (Fin 64))) (op := max) (b := Ideal.ofBits .f32 acc) fun d _ => ?_
  exact congrArg x (funext fun a => Fin.ext (by match a with | ⟨0, _⟩ => rfl | ⟨1, _⟩ => rfl))

/-- The sum over the 64 channels of row `n`. -/
theorem rowsum_apply (x : FVec Ideal S4096x64 .f32) (acc : BitVec 32) (h : S4096x64.Reduces [1] S4096)
    (hφ : FKind.Formats .f32) (hacc : acc = FKind.add.neutral .f32 hφ) (n : Fin 4096) :
    multiReduction (F := Ideal) .add [1] S4096 x acc h hφ hacc (ix1 n) = ∑ d : Fin 64, x (ix2 n d) := by
  refine (Ideal.multiReduction_add_single x acc h hφ hacc (ix1 n)).trans ?_
  refine Finset.sum_congr rfl fun d _ => ?_
  exact congrArg x (funext fun a => Fin.ext (by match a with | ⟨0, _⟩ => rfl | ⟨1, _⟩ => rfl))

/-- The maximum over the 4096 positions of column `d`, started from the accumulator's word. -/
theorem colmax_apply (x : FVec Ideal S4096x64 .f32) (acc : BitVec 32) (h : S4096x64.Reduces [0] S64)
    (hφ : FKind.Formats .f32) (hacc : acc = FKind.maximumf.neutral .f32 hφ) (d : Fin 64) :
    multiReduction (F := Ideal) .maximumf [0] S64 x acc h hφ hacc (ix1 d)
      = (Finset.univ : Finset (Fin 4096)).fold max (Ideal.ofBits .f32 acc) (fun n => x (ix2 n d)) := by
  refine (Ideal.multiReduction_maximumf_single x acc h hφ hacc (ix1 d)).trans ?_
  refine Finset.fold_congr (s := (Finset.univ : Finset (Fin 4096))) (op := max) (b := Ideal.ofBits .f32 acc) fun n _ => ?_
  exact congrArg x (funext fun a => Fin.ext (by match a with | ⟨0, _⟩ => rfl | ⟨1, _⟩ => rfl))

/-- The sum over the 4096 positions of column `d`. -/
theorem colsum_apply (x : FVec Ideal S4096x64 .f32) (acc : BitVec 32) (h : S4096x64.Reduces [0] S64)
    (hφ : FKind.Formats .f32) (hacc : acc = FKind.add.neutral .f32 hφ) (d : Fin 64) :
    multiReduction (F := Ideal) .add [0] S64 x acc h hφ hacc (ix1 d) = ∑ n : Fin 4096, x (ix2 n d) := by
  refine (Ideal.multiReduction_add_single x acc h hφ hacc (ix1 d)).trans ?_
  refine Finset.sum_congr rfl fun n _ => ?_
  exact congrArg x (funext fun a => Fin.ext (by match a with | ⟨0, _⟩ => rfl | ⟨1, _⟩ => rfl))

end Cert.LinAttn.Kernel

namespace Cert.LinAttn.Kernel

open Idealize.ShloMosaic Idealize.ShloMosaic.ValueIdx Cert.KernelIdeal Cert.KernelIdeal.Gen

/-! ## The two products read at an index

The first product contracts the sequence axis of both operands; the second contracts the channel axis of its left
operand against the first axis of its right one. For each, the operands' indices at a result index and a contraction
position are spelt out coordinate by coordinate, and the contraction's sum is re-indexed by the contracted coordinate. -/

/-- First product, left operand: the sequence coordinate is the contraction position. -/
theorem mm1_lhs_0 (j : S64x64.Idx) (q : (dot_S4096x64_S4096x64_S64x64_0_0_1_1_n_n).contr.Idx) :
    ((dot_S4096x64_S4096x64_S64x64_0_0_1_1_n_n).lhsIdx j q 0).val = (q ⟨0, by decide⟩).val :=
  (dot_S4096x64_S4096x64_S64x64_0_0_1_1_n_n).lhsIdx_val_of_single rfl j q

/-- First product, left operand: the channel coordinate is the result's row. -/
theorem mm1_lhs_1 (j : S64x64.Idx) (q : (dot_S4096x64_S4096x64_S64x64_0_0_1_1_n_n).contr.Idx) :
    ((dot_S4096x64_S4096x64_S64x64_0_0_1_1_n_n).lhsIdx j q 1).val = (j 0).val := by
  unfold DotDims.lhsIdx
  rw [dif_neg (show ¬(1 : Fin S4096x64.rank) ∈ (dot_S4096x64_S4096x64_S64x64_0_0_1_1_n_n).lhsBatch by decide), dif_pos (show (1 : Fin S4096x64.rank) ∈ (dot_S4096x64_S4096x64_S64x64_0_0_1_1_n_n).lhsNonContracting by decide)]
  rfl

/-- First product, right operand: the sequence coordinate is the contraction position. -/
theorem mm1_rhs_0 (j : S64x64.Idx) (q : (dot_S4096x64_S4096x64_S64x64_0_0_1_1_n_n).contr.Idx) :
    ((dot_S4096x64_S4096x64_S64x64_0_0_1_1_n_n).rhsIdx j q 0).val = (q ⟨0, by decide⟩).val :=
  (dot_S4096x64_S4096x64_S64x64_0_0_1_1_n_n).rhsIdx_val_of_single rfl j q

/-- First product, right operand: the channel coordinate is the result's column. -/
theorem mm1_rhs_1 (j : S64x64.Idx) (q : (dot_S4096x64_S4096x64_S64x64_0_0_1_1_n_n).contr.Idx) :
    ((dot_S4096x64_S4096x64_S64x64_0_0_1_1_n_n).rhsIdx j q 1).val = (j 1).val := by
  unfold DotDims.rhsIdx
  rw [dif_neg (show ¬(1 : Fin S4096x64.rank) ∈ (dot_S4096x64_S4096x64_S64x64_0_0_1_1_n_n).rhsBatch by decide), dif_pos (show (1 : Fin S4096x64.rank) ∈ (dot_S4096x64_S4096x64_S64x64_0_0_1_1_n_n).rhsNonContracting by decide)]
  rfl

/-- The first product into the zero matrix, contracted over the sequence: at `(d, e)`, the sum over the 4096 positions
    `n` of the left operand at `(n, d)` times the right operand at `(n, e)`. -/
theorem mm1_apply (l r : FVec Ideal S4096x64 .bf16) (d e : Fin 64) :
    matmul (F := Ideal) dot_S4096x64_S4096x64_S64x64_0_0_1_1_n_n none l r (constant (F := Ideal) S64x64 .f32 0x00000000#32) (ix2 d e)
      = ∑ n : Fin 4096, l (ix2 n d) * r (ix2 n e) := by
  refine (Ideal.matmul_constant_zero_apply dot_S4096x64_S4096x64_S64x64_0_0_1_1_n_n none l r (ix2 d e)).trans ?_
  rw [← Equiv.sum_comp (contrEquiv1 dot_S4096x64_S4096x64_S64x64_0_0_1_1_n_n 4096 rfl rfl).symm]
  refine Finset.sum_congr rfl fun k _ => ?_
  have hk := contrEquiv1_symm_val dot_S4096x64_S4096x64_S64x64_0_0_1_1_n_n 4096 rfl rfl k
  have el : (dot_S4096x64_S4096x64_S64x64_0_0_1_1_n_n).lhsIdx (ix2 d e) ((contrEquiv1 dot_S4096x64_S4096x64_S64x64_0_0_1_1_n_n 4096 rfl rfl).symm k) = ix2 k d := funext fun a => Fin.ext (by
    match a with
    | ⟨0, _⟩ => exact (mm1_lhs_0 _ _).trans hk
    | ⟨1, _⟩ => exact mm1_lhs_1 _ _)
  have er : (dot_S4096x64_S4096x64_S64x64_0_0_1_1_n_n).rhsIdx (ix2 d e) ((contrEquiv1 dot_S4096x64_S4096x64_S64x64_0_0_1_1_n_n 4096 rfl rfl).symm k) = ix2 k e := funext fun a => Fin.ext (by
    match a with
    | ⟨0, _⟩ => exact (mm1_rhs_0 _ _).trans hk
    | ⟨1, _⟩ => exact mm1_rhs_1 _ _)
  rw [el, er]

/-- Second product, left operand: the sequence coordinate is the result's row. -/
theorem mm2_lhs_0 (j : S4096x64.Idx) (q : (dot_S4096x64_S64x64_S4096x64_1_0_0_1_n_n).contr.Idx) :
    ((dot_S4096x64_S64x64_S4096x64_1_0_0_1_n_n).lhsIdx j q 0).val = (j 0).val := by
  unfold DotDims.lhsIdx
  rw [dif_neg (show ¬(0 : Fin S4096x64.rank) ∈ (dot_S4096x64_S64x64_S4096x64_1_0_0_1_n_n).lhsBatch by decide), dif_pos (show (0 : Fin S4096x64.rank) ∈ (dot_S4096x64_S64x64_S4096x64_1_0_0_1_n_n).lhsNonContracting by decide)]
  rfl

/-- Second product, left operand: the channel coordinate is the contraction position. -/
theorem mm2_lhs_1 (j : S4096x64.Idx) (q : (dot_S4096x64_S64x64_S4096x64_1_0_0_1_n_n).contr.Idx) :
    ((dot_S4096x64_S64x64_S4096x64_1_0_0_1_n_n).lhsIdx j q 1).val = (q ⟨0, by decide⟩).val :=
  (dot_S4096x64_S64x64_S4096x64_1_0_0_1_n_n).lhsIdx_val_of_single rfl j q

/-- Second product, right operand: the first coordinate is the contraction position. -/
theorem mm2_rhs_0 (j : S4096x64.Idx) (q : (dot_S4096x64_S64x64_S4096x64_1_0_0_1_n_n).contr.Idx) :
    ((dot_S4096x64_S64x64_S4096x64_1_0_0_1_n_n).rhsIdx j q 0).val = (q ⟨0, by decide⟩).val :=
  (dot_S4096x64_S64x64_S4096x64_1_0_0_1_n_n).rhsIdx_val_of_single rfl j q

/-- Second product, right operand: the second coordinate is the result's column. -/
theorem mm2_rhs_1 (j : S4096x64.Idx) (q : (dot_S4096x64_S64x64_S4096x64_1_0_0_1_n_n).contr.Idx) :
    ((dot_S4096x64_S64x64_S4096x64_1_0_0_1_n_n).rhsIdx j q 1).val = (j 1).val := by
  unfold DotDims.rhsIdx
  rw [dif_neg (show ¬(1 : Fin S64x64.rank) ∈ (dot_S4096x64_S64x64_S4096x64_1_0_0_1_n_n).rhsBatch by decide), dif_pos (show (1 : Fin S64x64.rank) ∈ (dot_S4096x64_S64x64_S4096x64_1_0_0_1_n_n).rhsNonContracting by decide)]
  rfl

/-- The second product into the zero matrix, contracted over the channels: at `(n, e)`, the sum over the 64 channels
    `d` of the left operand at `(n, d)` times the right operand at `(d, e)`. -/
theorem mm2_apply (prec : Option ContractPrecision) (l : FVec Ideal S4096x64 .f32) (r : FVec Ideal S64x64 .f32) (n : Fin 4096) (e : Fin 64) :
    matmul (F := Ideal) dot_S4096x64_S64x64_S4096x64_1_0_0_1_n_n prec l r (constant (F := Ideal) S4096x64 .f32 0x00000000#32) (ix2 n e)
      = ∑ d : Fin 64, l (ix2 n d) * r (ix2 d e) := by
  refine (Ideal.matmul_constant_zero_apply dot_S4096x64_S64x64_S4096x64_1_0_0_1_n_n prec l r (ix2 n e)).trans ?_
  rw [← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : (dot_S4096x64_S64x64_S4096x64_1_0_0_1_n_n).lhsIdx (ix2 n e) ((contrEquiv1 dot_S4096x64_S64x64_S4096x64_1_0_0_1_n_n 64 rfl rfl).symm k) = ix2 n k := funext fun a => Fin.ext (by
    match a with
    | ⟨0, _⟩ => exact mm2_lhs_0 _ _
    | ⟨1, _⟩ => exact (mm2_lhs_1 _ _).trans hk)
  have er : (dot_S4096x64_S64x64_S4096x64_1_0_0_1_n_n).rhsIdx (ix2 n e) ((contrEquiv1 dot_S4096x64_S64x64_S4096x64_1_0_0_1_n_n 64 rfl rfl).symm k) = ix2 k e := funext fun a => Fin.ext (by
    match a with
    | ⟨0, _⟩ => exact (mm2_rhs_0 _ _).trans hk
    | ⟨1, _⟩ => exact mm2_rhs_1 _ _)
  rw [el, er]

end Cert.LinAttn.Kernel

namespace Cert.LinAttn.Kernel

open Idealize.ShloMosaic Idealize.ShloMosaic.ValueIdx Cert.KernelIdeal Cert.KernelIdeal.Gen Cert.LinAttn

/-! ## The two softmaxes, as the body computes them on a 4096 × 64 block -/

/-- Each row's maximum over the channels, spread back over the row. -/
def rowMaxB (x : FVec Ideal S4096x64 .f32) : FVec Ideal S4096x64 .f32 :=
  broadcastTo S4096x64 (shapeCast S4096x1 (multiReduction (F := Ideal) .maximumf [1] S4096 x 0xFF800000#32 reduces_S4096x64_S4096 (.inl rfl) rfl) shapeCasts_S4096_S4096x1) broadcasts_S4096x1_S4096x64
/-- The exponential of each element less its row's maximum. -/
def rowExp (x : FVec Ideal S4096x64 .f32) : FVec Ideal S4096x64 .f32 := exp (F := Ideal) (subf x (rowMaxB x))
/-- Each row's sum over the channels, spread back over the row. -/
def rowSumB (y : FVec Ideal S4096x64 .f32) : FVec Ideal S4096x64 .f32 :=
  broadcastTo S4096x64 (shapeCast S4096x1 (multiReduction (F := Ideal) .add [1] S4096 y 0x00000000#32 reduces_S4096x64_S4096 (.inl rfl) rfl) shapeCasts_S4096_S4096x1) broadcasts_S4096x1_S4096x64
/-- The softmax along the channels, times the scale word. -/
def rowSoft (x : FVec Ideal S4096x64 .f32) : FVec Ideal S4096x64 .f32 :=
  mulf (divf (rowExp x) (rowSumB (rowExp x))) (broadcast S4096x64 (Scalar.ofBits (F := Ideal) .f32 0x3E000000#32))

/-- Each column's maximum over the positions, spread back over the column. -/
def colMaxB (x : FVec Ideal S4096x64 .f32) : FVec Ideal S4096x64 .f32 :=
  broadcastTo S4096x64 (shapeCast S1x64 (multiReduction (F := Ideal) .maximumf [0] S64 x 0xFF800000#32 reduces_S4096x64_S64 (.inl rfl) rfl) shapeCasts_S64_S1x64) broadcasts_S1x64_S4096x64
/-- The exponential of each element less its column's maximum. -/
def colExp (x : FVec Ideal S4096x64 .f32) : FVec Ideal S4096x64 .f32 := exp (F := Ideal) (subf x (colMaxB x))
/-- Each column's sum over the positions, spread back over the column. -/
def colSumB (y : FVec Ideal S4096x64 .f32) : FVec Ideal S4096x64 .f32 :=
  broadcastTo S4096x64 (shapeCast S1x64 (multiReduction (F := Ideal) .add [0] S64 y 0x00000000#32 reduces_S4096x64_S64 (.inl rfl) rfl) shapeCasts_S64_S1x64) broadcasts_S1x64_S4096x64
/-- The softmax along the sequence. -/
def colSoft (x : FVec Ideal S4096x64 .f32) : FVec Ideal S4096x64 .f32 := divf (colExp x) (colSumB (colExp x))

/-- The block as a slab: its element at `(n, d)`. -/
abbrev slabOf (x : FVec Ideal S4096x64 .f32) : Slab := fun n d => x (ix2 n d)

/-- At `(n, d)` the spread row maximum is row `n`'s maximum. -/
theorem rowMaxB_apply (x : FVec Ideal S4096x64 .f32) (n : Fin 4096) (d : Fin 64) : rowMaxB x (ix2 n d) = rowMax (slabOf x) n :=
  (broadcastTo_a1_ab_apply _ _ n d).trans ((shapeCast_a_a1_apply _ _ n 0).trans (rowmax_apply x _ _ _ _ n))

/-- At `(n, d)` the exponential is the channel softmax's numerator. -/
theorem rowExp_apply (x : FVec Ideal S4096x64 .f32) (n : Fin 4096) (d : Fin 64) : rowExp x (ix2 n d) = qExp (slabOf x) n d := by
  show Ideal.exp (x (ix2 n d) - rowMaxB x (ix2 n d)) = Ideal.exp (x (ix2 n d) - rowMax (slabOf x) n)
  rw [rowMaxB_apply]

/-- At `(n, d)` the spread row sum is row `n`'s sum. -/
theorem rowSumB_apply (y : FVec Ideal S4096x64 .f32) (n : Fin 4096) (d : Fin 64) : rowSumB y (ix2 n d) = ∑ d' : Fin 64, y (ix2 n d') :=
  (broadcastTo_a1_ab_apply _ _ n d).trans ((shapeCast_a_a1_apply _ _ n 0).trans (rowsum_apply y _ _ _ _ n))

/-- At `(n, d)` the body's scaled channel softmax is the specification's. -/
theorem rowSoft_apply (x : FVec Ideal S4096x64 .f32) (n : Fin 4096) (d : Fin 64) : rowSoft x (ix2 n d) = qSoft (slabOf x) n d := by
  show Ideal.div (rowExp x (ix2 n d)) (rowSumB (rowExp x) (ix2 n d)) * Ideal.ofBits .f32 0x3E000000#32
    = Ideal.div (qExp (slabOf x) n d) (∑ d' : Fin 64, qExp (slabOf x) n d') * Ideal.ofBits .f32 0x3E000000#32
  rw [rowSumB_apply, rowExp_apply]
  exact congrArg (fun s => Ideal.div (qExp (slabOf x) n d) s * Ideal.ofBits .f32 0x3E000000#32)
    (Finset.sum_congr rfl fun d' _ => rowExp_apply x n d')

/-- At `(n, d)` the spread column maximum is column `d`'s maximum. -/
theorem colMaxB_apply (x : FVec Ideal S4096x64 .f32) (n : Fin 4096) (d : Fin 64) : colMaxB x (ix2 n d) = colMax (slabOf x) d :=
  (broadcastTo_1b_ab_apply _ _ n d).trans ((shapeCast_a_1a_apply _ _ 0 d).trans (colmax_apply x _ _ _ _ d))

/-- At `(n, d)` the exponential is the sequence softmax's numerator. -/
theorem colExp_apply (x : FVec Ideal S4096x64 .f32) (n : Fin 4096) (d : Fin 64) : colExp x (ix2 n d) = kExp (slabOf x) n d := by
  show Ideal.exp (x (ix2 n d) - colMaxB x (ix2 n d)) = Ideal.exp (x (ix2 n d) - colMax (slabOf x) d)
  rw [colMaxB_apply]

/-- At `(n, d)` the spread column sum is column `d`'s sum. -/
theorem colSumB_apply (y : FVec Ideal S4096x64 .f32) (n : Fin 4096) (d : Fin 64) : colSumB y (ix2 n d) = ∑ n' : Fin 4096, y (ix2 n' d) :=
  (broadcastTo_1b_ab_apply _ _ n d).trans ((shapeCast_a_1a_apply _ _ 0 d).trans (colsum_apply y _ _ _ _ d))

/-- At `(n, d)` the body's sequence softmax is the specification's. -/
theorem colSoft_apply (x : FVec Ideal S4096x64 .f32) (n : Fin 4096) (d : Fin 64) : colSoft x (ix2 n d) = kSoft (slabOf x) n d := by
  show Ideal.div (colExp x (ix2 n d)) (colSumB (colExp x) (ix2 n d))
    = Ideal.div (kExp (slabOf x) n d) (∑ n' : Fin 4096, kExp (slabOf x) n' d)
  rw [colSumB_apply, colExp_apply]
  exact congrArg (fun s => Ideal.div (kExp (slabOf x) n d) s)
    (Finset.sum_congr rfl fun n' _ => colExp_apply x n' d)

end Cert.LinAttn.Kernel

namespace Cert.LinAttn.Kernel

open Idealize.ShloMosaic Idealize.ShloMosaic.ValueIdx Cert.KernelIdeal Cert.KernelIdeal.Gen Cert.LinAttn

/-! ## The body's arithmetic read at an index -/

/-- The body's arithmetic is: the three blocks read as 4096 × 64 matrices; the keys' sequence softmax against the values,
    contracted over the sequence into a 64 × 64 matrix; the queries' scaled channel softmax against that matrix,
    contracted over the channels; the result read back as a `[1, 1, 4096, 64]` block. -/
theorem pay_eq (v2 v5 v8 : Vec Ideal S1x1x4096x64 .f32) :
    k0_pay1 (F := Ideal) v2 v5 v8
      = shapeCast S1x1x4096x64
          (matmul (F := Ideal) dot_S4096x64_S64x64_S4096x64_1_0_0_1_n_n (some .fp32)
            (rowSoft (shapeCast S4096x64 v2 shapeCasts_S1x1x4096x64_S4096x64))
            (matmul (F := Ideal) dot_S4096x64_S4096x64_S64x64_0_0_1_1_n_n none
              (truncf .bf16 (colSoft (shapeCast S4096x64 v5 shapeCasts_S1x1x4096x64_S4096x64)) bitsLt_bf16_f32)
              (truncf .bf16 (shapeCast S4096x64 v8 shapeCasts_S1x1x4096x64_S4096x64 : FVec Ideal S4096x64 .f32) bitsLt_bf16_f32)
              (constant (F := Ideal) S64x64 .f32 0x00000000#32))
            (constant (F := Ideal) S4096x64 .f32 0x00000000#32))
          shapeCasts_S4096x64_S1x1x4096x64 := rfl

/-- A `[1, 1, 4096, 64]` block read as a matrix is, as a slab, the block at `(0, 0, n, d)`. -/
theorem slabOf_shapeCast (v : Vec Ideal S1x1x4096x64 .f32) :
    slabOf (shapeCast S4096x64 v shapeCasts_S1x1x4096x64_S4096x64) = fun n d => v (ix4 (0 : Fin 1) (0 : Fin 1) n d) :=
  funext fun n => funext fun d => shapeCast_11ab_ab_apply v _ n d

/-- The value the body stores, at `(0, 0, n, e)`, is the head's result at `(n, e)` of the three loaded blocks. -/
theorem pay_apply (v2 v5 v8 : Vec Ideal S1x1x4096x64 .f32) (n : Fin 4096) (e : Fin 64) :
    k0_pay1 (F := Ideal) v2 v5 v8 (ix4 (0 : Fin 1) (0 : Fin 1) n e)
      = head (fun n d => v2 (ix4 (0 : Fin 1) (0 : Fin 1) n d)) (fun n d => v5 (ix4 (0 : Fin 1) (0 : Fin 1) n d))
          (fun n d => v8 (ix4 (0 : Fin 1) (0 : Fin 1) n d)) n e := by
  rw [pay_eq]
  refine (shapeCast_ab_11ab_apply _ _ 0 0 n e).trans ?_
  refine (mm2_apply _ _ _ n e).trans ?_
  unfold head
  refine Finset.sum_congr rfl fun d _ => ?_
  rw [rowSoft_apply, slabOf_shapeCast]
  refine congrArg (qSoft (fun n d => v2 (ix4 (0 : Fin 1) (0 : Fin 1) n d)) n d * ·) ?_
  refine (mm1_apply _ _ d e).trans ?_
  unfold context
  refine Finset.sum_congr rfl fun m _ => ?_
  show colSoft (shapeCast S4096x64 v5 shapeCasts_S1x1x4096x64_S4096x64) (ix2 m d)
      * shapeCast S4096x64 v8 shapeCasts_S1x1x4096x64_S4096x64 (ix2 m e)
    = kSoft (fun n d => v5 (ix4 (0 : Fin 1) (0 : Fin 1) n d)) m d * v8 (ix4 (0 : Fin 1) (0 : Fin 1) m e)
  rw [colSoft_apply, slabOf_shapeCast, shapeCast_11ab_ab_apply]

end Cert.LinAttn.Kernel

end
-- ==== Proof.Bridge.lean ====
/-
  The kernel's result array is the linear-attention function `G`.

  `arrayOut` reads, at (b, h, n, e), the body's arithmetic of head (b, h) of the three argument arrays at (0, 0, n, e);
  the body's arithmetic at such an index is `head` of the three [4096, 64] slabs it was given; and head (b, h) of an
  array, read as a slab, is the array's (b, h) slab.  So `arrayOut` is `G`, index by index.
-/
import proofs.«128022_j26371099198131_2_alg».proof.Proof.ArrayValue
import proofs.«128022_j26371099198131_2_alg».proof.Proof.Spec
import proofs.«128022_j26371099198131_2_alg».proof.Proof.KernelPayload

set_option maxRecDepth 16384

noncomputable section

namespace Cert.LinAttn.Bridge

open Idealize.ShloMosaic Idealize.ShloMosaic.ValueIdx Cert.KernelIdeal

/-- Over the extended reals the kernel's result array is `G` of the argument arrays. -/
theorem arrayOut_eq_G (q k v : S8x16x4096x64.Idx → EReal) :
    Cert.LinAttn.Body.arrayOut (F := Ideal) q k v = Cert.LinAttn.G q k v := by
  funext i
  unfold Cert.LinAttn.Body.arrayOut
  rw [Cert.LinAttn.Kernel.pay_apply]
  rfl

end Cert.LinAttn.Bridge

end
-- ==== Proof.lean ====
/-
  Linear attention, two heads per grid point, against its jnp reference: the certificate's five claims.

  Both programs compute, for every (batch, head) pair with 4096 × 64 slabs Q, K, V,
    res[n, e] = Σ_d (softmax_d(Q)[n, d] / 8) · (Σ_n' softmax_n(K)[n', d] · V[n', e]),
  the kernel on an 8 × 8 grid whose body loops over the two heads of its block, the reference as 33 whole-array
  operations.  The scale 1/8 is the same dyadic word in both, the maxima start from the same −∞ word, the bf16
  roundings on the way into the kernel's first product are the identity over the extended reals, and both products are
  plain sums there in the same order of factors: the two sides are one function (`Cert.LinAttn.G`) and no law of
  arithmetic beyond `max (−∞) x = x` and `0 + x = x` is used, so the finiteness of the inputs is never opened.
  The three frames are the generated ones (the reference's is its run with the result dropped); the idealization
  rewrote nothing.
-/
import proofs.«128022_j26371099198131_2_alg».proof.Defs
import proofs.«128022_j26371099198131_2_alg».proof.Proof.Gen.Kernel
import proofs.«128022_j26371099198131_2_alg».proof.Proof.Gen.Kernel.Skeleton
import proofs.«128022_j26371099198131_2_alg».proof.Proof.Gen.Kernel.Loops
import proofs.«128022_j26371099198131_2_alg».proof.Proof.Gen.Kernel.Launch
import proofs.«128022_j26371099198131_2_alg».proof.Proof.Gen.Kernel.Points
import proofs.«128022_j26371099198131_2_alg».proof.Proof.Gen.Kernel.Frame
import proofs.«128022_j26371099198131_2_alg».proof.Proof.Gen.KernelIdeal
import proofs.«128022_j26371099198131_2_alg».proof.Proof.Gen.KernelIdeal.Skeleton
import proofs.«128022_j26371099198131_2_alg».proof.Proof.Gen.KernelIdeal.Loops
import proofs.«128022_j26371099198131_2_alg».proof.Proof.Gen.KernelIdeal.Launch
import proofs.«128022_j26371099198131_2_alg».proof.Proof.Gen.KernelIdeal.Points
import proofs.«128022_j26371099198131_2_alg».proof.Proof.Gen.KernelIdeal.Frame
import proofs.«128022_j26371099198131_2_alg».proof.Proof.Gen.ReferenceIdeal
import proofs.«128022_j26371099198131_2_alg».proof.Proof.Gen.KernelIdeal.Value
import proofs.«128022_j26371099198131_2_alg».proof.Proof.Gen.ReferenceIdeal.Run
import proofs.«128022_j26371099198131_2_alg».proof.Proof.Gen.ReferenceIdeal.Read
import proofs.«128022_j26371099198131_2_alg».proof.Proof.Gen.Pre_finite_inputs
import proofs.«128022_j26371099198131_2_alg».proof.Proof.Spec
import proofs.«128022_j26371099198131_2_alg».proof.Proof.ArrayValue
import proofs.«128022_j26371099198131_2_alg».proof.Proof.RefIsG
import proofs.«128022_j26371099198131_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- Over the extended reals both programs end with the linear-attention function `G` of the three arguments: the
    kernel because each grid point's two heads are computed by the body's arithmetic, which is `head` of the heads'
    slabs, and the 64 blocks tile the array; the reference operation by operation. -/
theorem algebraic : Cert.algebraic_KernelIdeal_ReferenceIdeal := by
  intro m ρ m' ρ' _ hagree
  refine ⟨fun c => Cert.LinAttn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.LinAttn.Bridge.arrayOut_eq_G _ _ _), (h c).2⟩)
      (Cert.LinAttn.Body.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v25_eq, Cert.LinAttn.Ref.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
